-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S16x4096 : S_.BroadcastsInDim S16x4096 (![] : Fin 0 → Fin S16x4096.rank)
  reducesTo_S16x4096_S_d0_1 : S16x4096.ReducesTo [0, 1] S_
  bcast_S_S16 : S_.BroadcastsInDim S16 (![] : Fin 0 → Fin S16.rank)
  reducesTo_S16_S_d0 : S16.ReducesTo [0] S_
  bcast_S_S4096x16 : S_.BroadcastsInDim S4096x16 (![] : Fin 0 → Fin S4096x16.rank)
  reducesTo_S4096x16_S_d0_1 : S4096x16.ReducesTo [0, 1] S_
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_arg4 : FVec F S4096x16 .f32) (main_arg5 : FVec F S1024x4096 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  let main_v24 : FVec F S1024x4096 .f32 := Host.absf main_arg5
  let main_cst_8 : FVec F S_ .f32 := constant S_ .f32 0x7F800000#32
  let main_v25 : FVec F S1024x4096 .f32 := broadcastInDim S1024x4096 ![] bcast_S_S1024x4096 main_cst_8
  let main_v26 : IVec S1024x4096 1 := cmpf .olt main_v24 main_v25
  let main_c_9 : IVec S_ 1 := constantI S_ 1 1#1
  let main_v27 : IVec S_ 1 := (fun x v => Host.reduce IntOp.andi x v reducesTo_S1024x4096_S_d0_1 h_S_) main_v26 main_c_9
  let main_v28 : IVec S_ 1 := andi main_v23 main_v27
  main_v28

def fn {F : FTy → Type} [FloatOps F] (main_arg0 : FVec F S4x2048x1024 .f32) (main_arg1 : FVec F S4096x1024 .f32) (main_arg2 : FVec F S16x4096 .f32) (main_arg3 : FVec F S16 .f32) (main_arg4 : FVec F S4096x16 .f32) (main_arg5 : FVec F S1024x4096 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_v13 main_v16
-- ==== Kernel.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S8192x1024 : Shape := ⟨2, ![8192, 1024]⟩
abbrev S1x16 : Shape := ⟨2, ![1, 16]⟩
abbrev S16x1024 : Shape := ⟨2, ![16, 1024]⟩
abbrev S512x1024 : Shape := ⟨2, ![512, 1024]⟩
abbrev S512x16 : Shape := ⟨2, ![512, 16]⟩
abbrev S512x4096 : Shape := ⟨2, ![512, 4096]⟩

abbrev nBuf : Space → Nat
  | .hbm => 13
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S16x4096, .f32⟩
  | .hbm, ⟨3, _⟩ => ⟨S16, .f32⟩
  | .hbm, ⟨4, _⟩ => ⟨S4096x16, .f32⟩
  | .hbm, ⟨5, _⟩ => ⟨S1024x4096, .f32⟩
  | .hbm, ⟨6, _⟩ => ⟨S8192x1024, .f32⟩
  | .hbm, ⟨7, _⟩ => ⟨S1x16, .f32⟩
  | .hbm, ⟨8, _⟩ => ⟨S16x1024, .f32⟩
  | .hbm, ⟨9, _⟩ => ⟨S4096x16, .bf16⟩
  | .hbm, ⟨10, _⟩ => ⟨S1024x4096, .bf16⟩
  | .hbm, ⟨11, _⟩ => ⟨S8192x1024, .f32⟩
  | .hbm, ⟨12, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S1x16, .f32⟩
  | .local _ .vmem, ⟨4, _⟩ => ⟨S4096x16, .bf16⟩
  | .local _ .vmem, ⟨5, _⟩ => ⟨S1024x4096, .bf16⟩
  | .local _ .vmem, ⟨6, _⟩ => ⟨S512x1024, .f32⟩
  | .local _ .vmem, ⟨7, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x2048x1024_S8192x1024 : S4x2048x1024.ShapeCasts S8192x1024
  shapeCasts_S16_S1x16 : S16.ShapeCasts S1x16
  bitsLt_bf16_f32 : FTy.bits .bf16 < FTy.bits .f32
  shapeCasts_S8192x1024_S4x2048x1024 : S8192x1024.ShapeCasts S4x2048x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  dot_S16x4096_S4096x1024_S16x1024_1_0_0_1_n_n_wf : DotDims.WF S16x4096 S4096x1024 S16x1024 [1] [0] [0] [1] [] []
  dot_S512x1024_S16x1024_S512x16_1_1_0_0_n_n_wf : DotDims.WF S512x1024 S16x1024 S512x16 [1] [1] [0] [0] [] []
  dot_S512x16_S4096x16_S512x4096_1_1_0_0_n_n_wf : DotDims.WF S512x16 S4096x16 S512x4096 [1] [1] [0] [0] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x16.size a ≤ S4096x16.size a
  hwx0_3 : ∀ i : grid0.Coords, EltTy.bits .bf16 = 32 ∨ (Rect.block (s := S4096x16) S4096x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .f32 = 32 ∨ (Rect.block (s := S8192x1024) S512x1024.size (cc0_transform_5 i) (hinb0_5 i)).WholeWords (EltTy.packing .f32)

variable [Facts₀]

def dot_S16x4096_S4096x1024_S16x1024_1_0_0_1_n_n : DotDims S16x4096 S4096x1024 S16x1024 where
  lhsContracting := [1]
  rhsContracting := [0]
  lhsNonContracting := [0]
  rhsNonContracting := [1]
  lhsBatch := []
  rhsBatch := []
  wf := dot_S16x4096_S4096x1024_S16x1024_1_0_0_1_n_n_wf
def dot_S512x1024_S16x1024_S512x16_1_1_0_0_n_n : DotDims S512x1024 S16x1024 S512x16 where
  lhsContracting := [1]
  rhsContracting := [1]
  lhsNonContracting := [0]
  rhsNonContracting := [0]
  lhsBatch := []
  rhsBatch := []
  wf := dot_S512x1024_S16x1024_S512x16_1_1_0_0_n_n_wf
def dot_S512x16_S4096x16_S512x4096_1_1_0_0_n_n : DotDims S512x16 S4096x16 S512x4096 where
  lhsContracting := [1]
  rhsContracting := [1]
  lhsNonContracting := [0]
  rhsNonContracting := [0]
  lhsBatch := []
  rhsBatch := []
  wf := dot_S512x16_S4096x16_S512x4096_1_1_0_0_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_call0_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S4096x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S4096x1024 : Shape := ⟨2, ![4096, 1024]⟩
abbrev S16x4096 : Shape := ⟨2, ![16, 4096]⟩
abbrev S16 : Shape := ⟨1, ![16]⟩
abbrev S4096x16 : Shape := ⟨2, ![4096, 16]⟩
abbrev S1024x4096 : Shape := ⟨2, ![1024, 4096]⟩
abbrev S4x2048x4096 : Shape := ⟨3, ![4, 2048, 4096]⟩
abbrev S4x2048x16 : Shape := ⟨3, ![4, 2048, 16]⟩
abbrev S1x1x16 : Shape := ⟨3, ![1, 1, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4096x1024, .f32⟩
  | .hbm, ⟨2, _⟩ => ⟨S16x4096, .f32⟩
  | .hbm, ⟨3, _⟩ => ⟨S16, .f32⟩
  | .hbm, ⟨4, _⟩ => ⟨S4096x16, .f32⟩
  | .hbm, ⟨5, _⟩ => ⟨S1024x4096, .f32⟩
  | .hbm, ⟨6, _⟩ => ⟨S4x2048x4096, .f32⟩
  | .hbm, ⟨7, _⟩ => ⟨S4x2048x16, .f32⟩
  | .hbm, ⟨8, _⟩ => ⟨S1x1x16, .f32⟩
  | .hbm, ⟨9, _⟩ => ⟨S4x2048x16, .f32⟩
  | .hbm, ⟨10, _⟩ => ⟨S4x2048x16, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_cst : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S4x2048x16_0_1_2 : S1x1x16.BroadcastsInDim S4x2048x16 (![0, 1, 2] : Fin 3 → Fin S4x2048x16.rank)
  bcast_S_S4x2048x4096 : S_.BroadcastsInDim S4x2048x4096 (![] : Fin 0 → Fin S4x2048x4096.rank)
  dot_S4x2048x1024_S4096x1024_S4x2048x4096_2_1_01_0_n_n_wf : DotDims.WF S4x2048x1024 S4096x1024 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []
  dot_S4x2048x4096_S1024x4096_S4x2048x1024_2_1_01_0_n_n_wf : DotDims.WF S4x2048x4096 S1024x4096 S4x2048x1024 [2] [1] [0, 1] [0] [] []

variable [Facts₀]

def dot_S4x2048x1024_S4096x1024_S4x2048x4096_2_1_01_0_n_n : DotDims S4x2048x1024 S4096x1024 S4x2048x4096 where
  lhsContracting := [2]
  rhsContracting := [1]
  lhsNonContracting := [0, 1]
  rhsNonContracting := [0]
  lhsBatch := []
  rhsBatch := []
  wf := dot_S4x2048x1024_S4096x1024_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf
def dot_S4x2048x4096_S1024x4096_S4x2048x1024_2_1_01_0_n_n : DotDims S4x2048x4096 S1024x4096 S4x2048x1024 where
  lhsContracting := [2]
  rhsContracting := [1]
  lhsNonContracting := [0, 1]
  rhsNonContracting := [0]
  lhsBatch := []
  rhsBatch := []
  wf := dot_S4x2048x4096_S1024x4096_S4x2048x1024_2_1_01_0_n_n_wf

class Facts : Prop extends Facts₀ where

variable [Facts]
-- ==== Proof.Spec.lean ====
/-
  The mathematics of the feed-forward block, one row at a time, on the extended reals.

  A row `x` (1024 entries) is sent to 16 phases `q`, each phase shifted by `θ` and passed through the cosine,
  the 16 cosines are mixed into 4096 hidden units by `w₂`, each hidden unit is clamped below at zero, and the
  hidden units are mixed into 1024 outputs by `wₒ`:
      out[e] = ∑ f, max (∑ j, cos (q[j] + θ[j]) · w₂[f, j]) 0 · wₒ[e, f].
  The two programs differ only in how the phases are formed.  One forms the 4096 hidden pre-activations first and
  contracts them with `w_q`:       q[j] = ∑ f, (∑ e, x[e] · w₁[f, e]) · w_q[j, f];
  the other folds the two weight matrices first:  q[j] = ∑ e, x[e] · (∑ f, w_q[j, f] · w₁[f, e]).
  For FINITE entries the two double sums are one real number (distributivity and an exchange of the two sums);
  at an infinite entry distributivity fails on the extended reals, which is why finiteness is assumed.
-/
import Idealize.ShloMosaic.PureOps.Ideal
import Idealize.ShloMosaic.Lib.ValueIdx
import Mathlib.Algebra.BigOperators.Ring.Finset
import Mathlib.Data.EReal.Basic

noncomputable section

open scoped BigOperators

namespace FeedForward

open Idealize.ShloMosaic Idealize.ShloMosaic.ValueIdx

/-- The row's outputs from its 16 phases: cosine of the shifted phase, the mix into the hidden units, the clamp at
    zero, the mix into the outputs. -/
def rowOut (q θ : Fin 16 → EReal) (w2 : Fin 4096 → Fin 16 → EReal) (wo : Fin 1024 → Fin 4096 → EReal) (e : Fin 1024) : EReal :=
  ∑ f : Fin 4096, max (∑ j : Fin 16, Ideal.cos (q j + θ j) * w2 f j) 0 * wo e f

/-- The phases with the two weight matrices folded first. -/
def phaseFolded (x : Fin 1024 → EReal) (w1 : Fin 4096 → Fin 1024 → EReal) (wq : Fin 16 → Fin 4096 → EReal) (j : Fin 16) : EReal :=
  ∑ e : Fin 1024, x e * ∑ f : Fin 4096, wq j f * w1 f e

/-- The phases through the 4096 hidden pre-activations. -/
def phaseChained (x : Fin 1024 → EReal) (w1 : Fin 4096 → Fin 1024 → EReal) (wq : Fin 16 → Fin 4096 → EReal) (j : Fin 16) : EReal :=
  ∑ f : Fin 4096, (∑ e : Fin 1024, x e * w1 f e) * wq j f

/-- A finite sum of real numbers, read in the extended reals, is the sum of the readings. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The exchange, over the reals read in the extended reals: `∑ e, x e · ∑ f, a f · b f e = ∑ f, (∑ e, x e · b f e) · a f`. -/
theorem fold_eq_chain_real {ι κ : Type*} [Fintype ι] [Fintype κ] (x : ι → ℝ) (a : κ → ℝ) (b : κ → ι → ℝ) :
    ∑ e, (x e : EReal) * ∑ f, (a f : EReal) * (b f e : EReal) = ∑ f, (∑ e, (x e : EReal) * (b f e : EReal)) * (a f : EReal) := by
  simp only [← EReal.coe_mul, ← coe_sum]
  refine congrArg _ ?_
  simp only [Finset.mul_sum, Finset.sum_mul]
  rw [Finset.sum_comm]
  exact Finset.sum_congr rfl fun f _ => Finset.sum_congr rfl fun e _ => by ring

/-- For finite rows and finite weights the two ways of forming the phases agree. -/
theorem phaseFolded_eq_chained (x : Fin 1024 → EReal) (w1 : Fin 4096 → Fin 1024 → EReal) (wq : Fin 16 → Fin 4096 → EReal)
    (hx : ∀ e, ∃ r : ℝ, x e = (r : EReal)) (hw1 : ∀ f e, ∃ r : ℝ, w1 f e = (r : EReal))
    (hwq : ∀ j f, ∃ r : ℝ, wq j f = (r : EReal)) (j : Fin 16) :
    phaseFolded x w1 wq j = phaseChained x w1 wq j := by
  choose xr hxr using hx
  choose w1r hw1r using hw1
  choose wqr hwqr using hwq
  unfold phaseFolded phaseChained
  simp only [hxr, hw1r, hwqr]
  exact fold_eq_chain_real xr (wqr j) w1r

/-- THE RESULT, as one function of the six argument arrays: entry `(b, s, e)` is the row function of row `(b, s)` of
    `x`, its phases formed through the hidden pre-activations. -/
def result (a0 : (⟨3, ![4, 2048, 1024]⟩ : Shape).Idx → EReal) (a1 : (⟨2, ![4096, 1024]⟩ : Shape).Idx → EReal)
    (a2 : (⟨2, ![16, 4096]⟩ : Shape).Idx → EReal) (a3 : (⟨1, ![16]⟩ : Shape).Idx → EReal)
    (a4 : (⟨2, ![4096, 16]⟩ : Shape).Idx → EReal) (a5 : (⟨2, ![1024, 4096]⟩ : Shape).Idx → EReal) :
    (⟨3, ![4, 2048, 1024]⟩ : Shape).Idx → EReal := fun i =>
  rowOut (phaseChained (fun e => a0 (ix3 (i 0) (i 1) e)) (fun f e => a1 (ix2 f e)) (fun j f => a2 (ix2 j f)))
    (fun j => a3 (ix1 j)) (fun f j => a4 (ix2 f j)) (fun e f => a5 (ix2 e f)) (i 2)

end FeedForward

end
-- ==== Proof.LibMatmulNT.lean ====
/-
  A matrix product of a row-major `M × K` block against an `N × K` block whose LAST axis is contracted (the
  right operand enters transposed: the left operand's axis 1 is contracted with the right operand's axis 1),
  accumulated into the zero block and read at the extended reals: entry `(p, q)` of the result is the sum over
  `k` of `x[p, k] · w[q, k]`.  The contraction index of the matrix unit ranges over a one-axis shape of extent
  `K`; it is re-indexed to `Fin K`, and the two operand indices that the dimension record computes are named
  coordinate by coordinate.  General in the three extents and in the operands' float formats.
-/
import Idealize.ShloMosaic.PureOps.Ideal.Laws
import Idealize.ShloMosaic.Lib.ValueIdx

noncomputable section

open scoped BigOperators

namespace LibMatmulNT

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single rfl _ _).trans hk

/-- The right operand's index at output index `(p, q)` and contraction index `k` is `(q, k)`: its row is the
    output's column. -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single rfl _ _).trans hk

/-- Entry `(p, q)` of `x · wᵀ` accumulated into zero is `∑ k, x[p, k] · w[q, k]` on the extended reals. -/
theorem matmul_zero_apply {φ₁ φ₂ : FTy} (prec : Option ContractPrecision)
    (x : FVec Ideal ⟨2, ![M, K]⟩ φ₁) (w : FVec Ideal ⟨2, ![N, K]⟩ φ₂) (p : Fin M) (q : Fin N) :
    FloatOps.matmul (DotDims.transposedRhs M K N) prec x w (constant (F := Ideal) ⟨2, ![M, N]⟩ .f32 0x00000000#32) (ix2 p q)
      = ∑ k : Fin K, x (ix2 p k) * w (ix2 q k) := by
  rw [Ideal.matmul_constant_zero_apply, ← Equiv.sum_comp (contrEquiv1 (DotDims.transposedRhs M K N) K rfl rfl).symm]
  refine Finset.sum_congr rfl fun k _ => ?_
  rw [lhsIdx_eq, rhsIdx_eq]

end LibMatmulNT

end
-- ==== Proof.Body.lean ====
/-
  What one grid point computes, entry by entry.  The body loads a block of 512 rows of `x`, the folded phase
  weights (16 × 1024), the phase shifts (1 × 16) and the two mixing matrices, and stores
      out[p, e] = ∑ f, max (∑ j, cos ((∑ k, x[p, k] · w_q1[j, k]) + θ[0, j]) · w₂[f, j]) 0 · wₒ[e, f],
  that is, the row function `FeedForward.rowOut` of row `p`'s phases.  Each of the three products is a product
  against a right operand contracted on its last axis, accumulated into zero; the format changes between them are
  the identity on the extended reals, the shape casts are between equal shapes, and the phase shifts are broadcast
  down the rows.
-/
import proofs.«168954_j65481071396892_2_alg».proof.Proof.Gen.KernelIdeal.Skeleton
import proofs.«168954_j65481071396892_2_alg».proof.Proof.Spec
import proofs.«168954_j65481071396892_2_alg».proof.Proof.LibMatmulNT
import Idealize.ShloMosaic.Lib.Pipeline.Value
import Idealize.ShloMosaic.Lib.ValueIdx

noncomputable section

open scoped BigOperators

namespace Cert.KernelIdeal.Body

open Cert.KernelIdeal Cert.KernelIdeal.Gen Idealize.ShloMosaic Idealize.ShloMosaic.ValueIdx FeedForward

variable (x0 : Vec Ideal S512x1024 .f32) (x1 : Vec Ideal S16x1024 .f32) (x2 : Vec Ideal S1x16 .f32)
  (x3 : Vec Ideal S4096x16 .bf16) (x4 : Vec Ideal S1024x4096 .bf16)

/-- The phase shifts, one row of 16, broadcast down the 512 rows of the block: entry `(p, j)` is `θ[0, j]`. -/
theorem shift_apply (h : S1x16.Broadcasts S512x16) (p : Fin 512) (j : Fin 16) :
    broadcastTo S512x16 x2 h (ix2 p j) = x2 (ix2 0 j) :=
  broadcastTo_apply x2 h (ix2 p j) (ix2 0 j) (fun a => by
    match a with
    | ⟨0, _⟩ => rfl
    | ⟨1, _⟩ => rfl)

/-- THE BODY'S STORED VALUE AT AN ENTRY: the row function of the phases of row `p` of the block. -/
theorem pay_apply (p : Fin 512) (e : Fin 1024) :
    k0_pay1 (F := Ideal) x0 x1 x2 x3 x4 (ix2 p e)
      = rowOut (fun j => ∑ k : Fin 1024, x0 (ix2 p k) * x1 (ix2 j k)) (fun j => x2 (ix2 0 j))
          (fun f j => x3 (ix2 f j)) (fun e f => x4 (ix2 e f)) e := by
  unfold k0_pay1
  simp only [shapeCast_self]
  refine (LibMatmulNT.matmul_zero_apply 512 4096 1024 (φ₁ := .bf16) (φ₂ := .bf16) none _ x4 p e).trans ?_
  unfold rowOut
  refine Finset.sum_congr rfl fun f _ => ?_
  refine congrArg (· * x4 (ix2 e f)) ?_
  show max (FloatOps.matmul (F := Ideal) dot_S512x16_S4096x16_S512x4096_1_1_0_0_n_n none _ x3 (constant S512x4096 .f32 0x00000000#32) (ix2 p f))
    (Ideal.ofBits .f32 0x00000000#32) = _
  rw [Ideal.ofBits_zero_f32]
  refine congrArg (max · 0) ?_
  refine (LibMatmulNT.matmul_zero_apply 512 16 4096 (φ₁ := .bf16) (φ₂ := .bf16) none _ x3 p f).trans ?_
  refine Finset.sum_congr rfl fun j _ => ?_
  refine congrArg (· * x3 (ix2 f j)) ?_
  show Ideal.cos (FloatOps.matmul (F := Ideal) dot_S512x1024_S16x1024_S512x16_1_1_0_0_n_n none x0 x1 (constant S512x16 .f32 0x00000000#32) (ix2 p j)
    + broadcastTo S512x16 x2 broadcasts_S1x16_S512x16 (ix2 p j)) = _
  rw [shift_apply]
  exact congrArg (fun z => Ideal.cos (z + x2 (ix2 0 j))) (LibMatmulNT.matmul_zero_apply 512 1024 16 (φ₁ := .f32) (φ₂ := .f32) none x0 x1 p j)

end Cert.KernelIdeal.Body

end
-- ==== Proof.Blocks.lean ====
/-
  From the 16 row tiles to the whole output array.  Grid point `t` loads rows `512·t … 512·t + 511` of the flattened
  input (all 1024 columns) together with the four weight arrays whole, and writes back rows `512·t … 512·t + 511` of the
  output.  So what point `t` writes back is block `t` of ONE function of the arrays as the region finds them: entry
  `(r, e)` is the row function of row `r`'s phases.  The 16 tiles cover all 8192 rows (row `r` lies in tile `r / 512`), so
  after the run the output array IS that function.
-/
import proofs.«168954_j65481071396892_2_alg».proof.Proof.Gen.KernelIdeal.Frame
import proofs.«168954_j65481071396892_2_alg».proof.Proof.Body
import Idealize.ShloMosaic.Lib.Pipeline.Value
import Idealize.ShloMosaic.Lib.ValueIdx

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem FeedForward
open Idealize.ShloMosaic.Pipeline (Dat Cfg Window)

variable (m : (ℓ : Loc nD τ sig) → Buf (Elt Ideal) ℓ)

theorem offsets_zero : (![0, 0] : Fin 2 → Nat) = fun _ => 0 := funext fun a => by fin_cases a <;> rfl

/-- The five input arrays as the region finds them. -/
abbrev rowsIn (c : Dev nD) : S8192x1024.Idx → EReal := V m c main_call0_v0
abbrev foldedIn (c : Dev nD) : S16x1024.Idx → EReal := V m c main_call0_v2
abbrev shiftIn (c : Dev nD) : S1x16.Idx → EReal := V m c main_call0_v1
abbrev mix2In (c : Dev nD) : S4096x16.Idx → EReal := V m c main_call0_v3
abbrev mixoIn (c : Dev nD) : S1024x4096.Idx → EReal := V m c main_call0_v4

/-- The output array: entry `(r, e)` is the row function of row `r` of the flattened input, its phases formed with the
    folded weights. -/
def wholeOut (c : Dev nD) : S8192x1024.Idx → EReal := fun i =>
  rowOut (fun j => ∑ k : Fin 1024, rowsIn m c (ix2 (i 0) k) * foldedIn m c (ix2 j k)) (fun j => shiftIn m c (ix2 0 j))
    (fun f j => mix2In m c (ix2 f j)) (fun e f => mixoIn m c (ix2 e f)) (i 1)

/-- A block's stored value against the whole-array function: if the loaded row tile holds rows of the flattened input
    starting at the row of `i`, the four weight blocks are the weight arrays, and `i`'s column is `e`, then the stored
    entry `(p, e)` is the whole-array function at `i`. -/
theorem pay_eq_wholeOut (c : Dev nD) (x0 : Vec Ideal S512x1024 .f32) (x1 : Vec Ideal S16x1024 .f32) (x2 : Vec Ideal S1x16 .f32)
    (x3 : Vec Ideal S4096x16 .bf16) (x4 : Vec Ideal S1024x4096 .bf16) (p : Fin 512) (e : Fin 1024) (i : S8192x1024.Idx)
    (h0 : ∀ k : Fin 1024, x0 (ix2 p k) = rowsIn m c (ix2 (i 0) k))
    (h1 : ∀ (j : Fin 16) (k : Fin 1024), x1 (ix2 j k) = foldedIn m c (ix2 j k))
    (h2 : ∀ j : Fin 16, x2 (ix2 0 j) = shiftIn m c (ix2 0 j))
    (h3 : ∀ (f : Fin 4096) (j : Fin 16), x3 (ix2 f j) = mix2In m c (ix2 f j))
    (h4 : ∀ (e' : Fin 1024) (f : Fin 4096), x4 (ix2 e' f) = mixoIn m c (ix2 e' f))
    (h5 : i 1 = e) :
    k0_pay1 (F := Ideal) x0 x1 x2 x3 x4 (ix2 p e) = wholeOut m c i := by
  rw [Body.pay_apply]
  unfold wholeOut
  simp only [h0, h1, h2, h3, h4, h5]

/-- The printed index maps over the grid: the row tile of the input moves with the output's, every other block index
    is zero, and the output's row-tile index is the point's number. -/
theorem index_facts : ∀ t : Fin cfg0.N, win0_0.index t (0 : Fin 2) = win0_5.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 15 :=
  (by decide +kernel : ∀ t : Fin grid0.N, _)

/-- Every row tile is some point's. -/
theorem index_onto : ∀ q : Fin 16, ∃ t : Fin cfg0.N, win0_5.index t = ![q.val, 0] :=
  (by decide +kernel : ∀ q : Fin 16, ∃ t : Fin grid0.N, win0_5.index t = ![q.val, 0])

/-- WHAT POINT `t` WRITES BACK is block `t` of `wholeOut`. -/
theorem flushed_eq (c : Dev nD) (t : Fin cfg0.N) :
    (dats m 0 c).flushed 5 t = ((cfg0.win 5).blk t).view.read (Elt Ideal) (wholeOut m c) := by
  show (cfg0.win 5).cut (grid0.coords t) ((dats m 0 c).after 5 t) = _
  rw [after0_5]
  unfold out0_5
  rw [View.canon_unit_zero offsets_zero]
  simp only [View.ld_unit_zero (S := S512x1024) offsets_zero, View.ld_unit_zero (S := S16x1024) offsets_zero,
    View.ld_unit_zero (S := S1x16) offsets_zero, View.ld_unit_zero (S := S4096x16) offsets_zero,
    View.ld_unit_zero (S := S1024x4096) offsets_zero]
  obtain ⟨e00, e01, e10, e11, e20, e21, e30, e31, e40, e41, e51, -⟩ := index_facts t
  funext y
  obtain ⟨p, e, rfl⟩ : ∃ (p : Fin 512) (e : Fin 1024), y = ix2 p e := ⟨y 0, y 1, eq_ix2 y⟩
  show k0_pay1 (F := Ideal) (iblk m c 0 t) (iblk m c 1 t) (iblk m c 2 t) (iblk m c 3 t) (iblk m c 4 t) (ix2 p e)
    = wholeOut m c (((cfg0.win 5).blk t).view.emb (ix2 p e))
  refine pay_eq_wholeOut m c (iblk m c 0 t) (iblk m c 1 t) (iblk m c 2 t) (iblk m c 3 t) (iblk m c 4 t) p e _ ?_ ?_ ?_ ?_ ?_ ?_
  · intro k
    show rowsIn m c (((cfg0.win 0).blk t).view.emb (ix2 p k)) = rowsIn m c (ix2 ((((cfg0.win 5).blk t).view.emb (ix2 p e)) 0) k)
    refine congrArg (rowsIn m c) (funext fun a => Fin.ext ?_)
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * k.val = k.val; omega
  · intro j k
    show foldedIn m c (((cfg0.win 1).blk t).view.emb (ix2 j k)) = foldedIn m c (ix2 j k)
    refine congrArg (foldedIn m c) (funext fun a => Fin.ext ?_)
    match a with
    | ⟨0, _⟩ => show win0_1.index t (0 : Fin 2) * 16 + 1 * j.val = j.val; omega
    | ⟨1, _⟩ => show win0_1.index t (1 : Fin 2) * 1024 + 1 * k.val = k.val; omega
  · intro j
    show shiftIn m c (((cfg0.win 2).blk t).view.emb (ix2 0 j)) = shiftIn m c (ix2 0 j)
    refine congrArg (shiftIn m c) (funext fun a => Fin.ext ?_)
    match a with
    | ⟨0, _⟩ => show win0_2.index t (0 : Fin 2) * 1 + 1 * 0 = 0; omega
    | ⟨1, _⟩ => show win0_2.index t (1 : Fin 2) * 16 + 1 * j.val = j.val; omega
  · intro f j
    show mix2In m c (((cfg0.win 3).blk t).view.emb (ix2 f j)) = mix2In m c (ix2 f j)
    refine congrArg (mix2In m c) (funext fun a => Fin.ext ?_)
    match a with
    | ⟨0, _⟩ => show win0_3.index t (0 : Fin 2) * 4096 + 1 * f.val = f.val; omega
    | ⟨1, _⟩ => show win0_3.index t (1 : Fin 2) * 16 + 1 * j.val = j.val; omega
  · intro e' f
    show mixoIn m c (((cfg0.win 4).blk t).view.emb (ix2 e' f)) = mixoIn m c (ix2 e' f)
    refine congrArg (mixoIn m c) (funext fun a => Fin.ext ?_)
    match a with
    | ⟨0, _⟩ => show win0_4.index t (0 : Fin 2) * 1024 + 1 * e'.val = e'.val; omega
    | ⟨1, _⟩ => show win0_4.index t (1 : Fin 2) * 4096 + 1 * f.val = f.val; omega
  · refine Fin.ext ?_
    show win0_5.index t (1 : Fin 2) * 1024 + 1 * e.val = e.val
    omega

/-- An index of the output array is in point `t`'s block iff each coordinate is in the block's range on its axis. -/
theorem mem_block (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_call0_v5).slice (win0_5.rect t)).set ↔ _
  rw [View.set_slice_whole, Rect.mem_set_unit]
  exact Iff.rfl

/-- THE COVER: every entry of the output array lies in the block of the point numbered by its row tile. -/
theorem covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  obtain ⟨t, ht⟩ := index_onto ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE OUTPUT ARRAY after the run is `wholeOut` of the arrays as the region finds them. -/
theorem final (c : Dev nD) : (dats m 0 c).arrAt 5 cfg0.N = wholeOut m c :=
  (dats m 0 c).arrAt_eq_of_cover 5 (wholeOut m c) (fun t _ => flushed_eq m c t) (covered)

end Cert.KernelIdeal.Blocks

end
-- ==== Proof.LibMatmulNN.lean ====
/-
  A matrix product of a row-major `M × K` block against a `K × N` block (the right operand NOT transposed:
  the left operand's axis 1 is contracted with the right operand's axis 0), accumulated into the zero block,
  read at the extended reals: entry `(p, q)` of the result is the sum over `k` of `x[p, k] · w[k, q]`.
  The matrix unit's contraction index ranges over a one-axis shape of extent `K`; it is re-indexed to `Fin K`,
  and the operand indices the dot's dimension record computes are named coordinate by coordinate.
  General in the three extents and in the operands' float formats.
-/
import Idealize.ShloMosaic.PureOps.Ideal.Laws
import Idealize.ShloMosaic.Lib.ValueIdx

noncomputable section

open scoped BigOperators

namespace LibMatmulNN

open Idealize.ShloMosaic Idealize.ShloMosaic.ValueIdx

variable (M K N : Nat)

/-- The left operand's index at output index `(p, q)` and contraction index `k` is `(p, k)`. -/
theorem lhsIdx_eq (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl _ _).trans hk

/-- The right operand's index at output index `(p, q)` and contraction index `k` is `(k, q)`. -/
theorem rhsIdx_eq (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl _ _).trans hk
  | ⟨1, _⟩ => rfl

/-- Entry `(p, q)` of `x · w` accumulated into zero is `∑ k, x[p, k] · w[k, q]` on the extended reals. -/
theorem matmul_zero_apply {φ₁ φ₂ : FTy} (prec : Option ContractPrecision)
    (x : FVec Ideal ⟨2, ![M, K]⟩ φ₁) (w : FVec Ideal ⟨2, ![K, N]⟩ φ₂) (p : Fin M) (q : Fin N) :
    FloatOps.matmul (DotDims.plain M K N) prec x w (constant (F := Ideal) ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [lhsIdx_eq, rhsIdx_eq]

end LibMatmulNN

end
-- ==== Proof.LibDotGeneralNN.lean ====
/-
  jnp's `dot_general` on the host of a row-major `M × K` array against a `K × N` array (the right operand NOT
  transposed: the left operand's axis 1 is contracted with the right operand's axis 0), read at the extended reals:
  entry `(p, q)` of the result is the sum over `k` of `x[p, k] · w[k, q]`, whatever the schedule key and the precision.
  It is the same sum, over the same index set `Fin K` and in the same form, as the matrix unit's product into a zero
  accumulator (LibMatmulNN.matmul_zero_apply), so a kernel's `tpu.matmul` and a reference's `dot_general` of equal
  operands are equal entry by entry.  General in the three extents and in the operands' float formats.
-/
import Idealize.ShloMosaic.PureOps.Ideal.Laws
import Idealize.ShloMosaic.Lib.ValueIdx
import proofs.«168954_j65481071396892_2_alg».proof.Proof.LibMatmulNN

noncomputable section

open scoped BigOperators

namespace LibDotGeneralNN

open Idealize.ShloMosaic Idealize.ShloMosaic.ValueIdx

variable (M K N : Nat)

/-- Entry `(p, q)` of the host's `dot_general` of `x` and `w` is `∑ k, x[p, k] · w[k, q]` on the extended reals. -/
theorem dotGeneral_apply {φ₁ φ₂ : FTy} (prec : Option ContractPrecision) (sched : HostSchedule)
    (x : FVec Ideal ⟨2, ![M, K]⟩ φ₁) (w : FVec Ideal ⟨2, ![K, N]⟩ φ₂) (p : Fin M) (q : Fin N) :
    FloatOps.dotGeneral (DotDims.plain M K N) prec sched x w (ix2 p q)
      = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [LibMatmulNN.lhsIdx_eq, LibMatmulNN.rhsIdx_eq]

end LibDotGeneralNN

end
-- ==== Proof.HostSide.lean ====
/-
  What the region finds in its five input arrays, entry by entry, on the extended reals.  Before the launch the host
  flattens `x` from `[4, 2048, 1024]` to `[8192, 1024]` (row `2048·b + s` is row `(b, s)`: a reshape keeps every
  element's row-major position), views the 16 phase shifts as one row `[1, 16]`, folds the two phase matrices into
  `w_q1[j, e] = ∑ f, w_q[j, f] · w₁[f, e]`, and changes the format of the two mixing matrices, which on the extended
  reals changes nothing.
-/
import proofs.«168954_j65481071396892_2_alg».proof.Proof.Gen.KernelIdeal.Frame
import proofs.«168954_j65481071396892_2_alg».proof.Proof.LibDotGeneralNN
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.KernelIdeal.HostSide

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ## The six argument arrays on core `c`, as functions of an index into the extended reals -/

/-- `x`, `[4, 2048, 1024]`. -/
abbrev argX (c : Dev nD) : S4x2048x1024.Idx → EReal := m ((c : Thread nD τ).loc main_arg0)
/-- `w₁`, `[4096, 1024]`. -/
abbrev argW1 (c : Dev nD) : S4096x1024.Idx → EReal := m ((c : Thread nD τ).loc main_arg1)
/-- `w_q`, `[16, 4096]`. -/
abbrev argWq (c : Dev nD) : S16x4096.Idx → EReal := m ((c : Thread nD τ).loc main_arg2)
/-- `θ`, `[16]`. -/
abbrev argθ (c : Dev nD) : S16.Idx → EReal := m ((c : Thread nD τ).loc main_arg3)
/-- `w₂`, `[4096, 16]`. -/
abbrev argW2 (c : Dev nD) : S4096x16.Idx → EReal := m ((c : Thread nD τ).loc main_arg4)
/-- `wₒ`, `[1024, 4096]`. -/
abbrev argWo (c : Dev nD) : S1024x4096.Idx → EReal := m ((c : Thread nD τ).loc main_arg5)

/-- The flattened input: the reshape of `x`. -/
theorem V_rows (c : Dev nD) :
    (V m c main_call0_v0 : S8192x1024.Idx → EReal)
      = shapeCast S8192x1024 (argX m c) shapeCasts_S4x2048x1024_S8192x1024 := by
  show StableHlo.after hostOps0 (fun b => m (c, b)) (Proc.devRef .tc main_call0_v0) = _
  after_results
  rfl

/-- Row `2048·b + s` of the flattened input is row `(b, s)` of `x`: both sit at row-major position
    `(2048·b + s)·1024 + e`. -/
theorem rows_apply (c : Dev nD) (b : Fin 4) (s : Fin 2048) (e : Fin 1024) (r : Fin 8192) (hr : r.val = 2048 * b.val + s.val) :
    (V m c main_call0_v0 : S8192x1024.Idx → EReal) (ix2 r e) = argX m c (ix3 b s e) := by
  rw [V_rows]
  refine shapeCast_apply (argX m c) shapeCasts_S4x2048x1024_S8192x1024 (ix2 r e) (ix3 b s e) ?_
  show (S4x2048x1024.rowMajor (ix3 b s e)).val = (S8192x1024.rowMajor (ix2 r e)).val
  exact (by
    rw [Shape.rowMajor_val_three, Shape.rowMajor_val_two]
    show (b.val * 2048 + s.val) * 1024 + e.val = r.val * 1024 + e.val
    rw [hr, Nat.mul_comm 2048 b.val])

/-- The phase shifts as one row: the reshape of `θ`. -/
theorem V_shift (c : Dev nD) :
    (V m c main_call0_v1 : S1x16.Idx → EReal)
      = shapeCast S1x16 (argθ m c) shapeCasts_S16_S1x16 := by
  show StableHlo.after hostOps0 (fun b => m (c, b)) (Proc.devRef .tc main_call0_v1) = _
  after_results
  rfl

/-- Entry `(0, j)` of that row is `θ[j]`. -/
theorem shift_apply (c : Dev nD) (u : Fin 1) (j : Fin 16) :
    (V m c main_call0_v1 : S1x16.Idx → EReal) (ix2 u j) = argθ m c (ix1 j) := by
  rw [V_shift]
  exact shapeCast_a_1a_apply (argθ m c) shapeCasts_S16_S1x16 u j

/-- The folded phase weights: the host's product of `w_q` and `w₁`. -/
theorem V_folded (c : Dev nD) :
    (V m c main_call0_v2 : S16x1024.Idx → EReal)
      = Host.dotGeneral (F := Ideal) (φ₁ := .f32) (φ₂ := .f32) dot_S16x4096_S4096x1024_S16x1024_1_0_0_1_n_n none
          (argWq m c) (argW1 m c) := by
  show StableHlo.after hostOps0 (fun b => m (c, b)) (Proc.devRef .tc main_call0_v2) = _
  after_results
  rfl

/-- Entry `(j, e)` of the folded weights is `∑ f, w_q[j, f] · w₁[f, e]`. -/
theorem folded_apply (c : Dev nD) (j : Fin 16) (e : Fin 1024) :
    (V m c main_call0_v2 : S16x1024.Idx → EReal) (ix2 j e)
      = ∑ f : Fin 4096, argWq m c (ix2 j f) * argW1 m c (ix2 f e) := by
  rw [V_folded]
  exact LibDotGeneralNN.dotGeneral_apply 16 4096 1024 (φ₁ := .f32) (φ₂ := .f32) none .single (argWq m c) (argW1 m c) j e

/-- The first mixing matrix after its change of format: `w₂` itself. -/
theorem V_mix2 (c : Dev nD) :
    (V m c main_call0_v3 : S4096x16.Idx → EReal) = argW2 m c := by
  show StableHlo.after hostOps0 (fun b => m (c, b)) (Proc.devRef .tc main_call0_v3) = _
  after_results
  rfl

/-- The second mixing matrix after its change of format: `wₒ` itself. -/
theorem V_mixo (c : Dev nD) :
    (V m c main_call0_v4 : S1024x4096.Idx → EReal) = argWo m c := by
  show StableHlo.after hostOps0 (fun b => m (c, b)) (Proc.devRef .tc main_call0_v4) = _
  after_results
  rfl

end Cert.KernelIdeal.HostSide

end
-- ==== Proof.KernelValue.lean ====
/-
  The kernel program's result array.  After the region the host reshapes the `[8192, 1024]` output back to
  `[4, 2048, 1024]`, so entry `(b, s, e)` of the result is entry `(2048·b + s, e)` of the output array, which is the row
  function of row `(b, s)` of `x` with the phases formed from the FOLDED weights.  For finite `x`, `w₁`, `w_q` the folded
  phases are the chained ones, and the result array is `FeedForward.result` of the six arguments — the same function the
  reference computes.
-/
import proofs.«168954_j65481071396892_2_alg».proof.Proof.Blocks
import proofs.«168954_j65481071396892_2_alg».proof.Proof.HostSide
import Idealize.ShloMosaic.Lib.Pipeline.Value
import Idealize.ShloMosaic.Lib.ValueIdx
import Idealize.ShloMosaic.Lib.StableHlo.Run

set_option maxRecDepth 16384

noncomputable section

open scoped BigOperators

namespace Cert.KernelIdeal.KernelValue

open Cert.KernelIdeal Cert.KernelIdeal.Gen Idealize.ShloMosaic Idealize.ShloMosaic.TcCoe Idealize.ShloMosaic.ValueIdx
open Idealize.SL.Sem Idealize.ShloMosaic.StableHlo FeedForward Cert.KernelIdeal.Blocks Cert.KernelIdeal.HostSide

variable (m : (ℓ : Loc nD τ sig) → Buf (Elt Ideal) ℓ)

/-- The result buffer after the host's last line: the reshape of the output array. -/
theorem tail_eq (c : Dev nD) :
    (Pipeline.afterTail₀ cfgs (dats m) 0 (V0 m) [hostOps1] c main_v0 : S4x2048x1024.Idx → EReal)
      = shapeCast S4x2048x1024 (wholeOut m c) shapeCasts_S8192x1024_S4x2048x1024 := by
  unfold Pipeline.afterTail₀
  show StableHlo.after hostOps1 _ (Proc.devRef .tc main_v0) = _
  after_results
  have hw : Pipeline.withArrays (cfgs 0).spec c (V0 m c) (fun w => (dats m 0 c).arrAt w (cfgs 0).N) (Proc.devRef .tc main_call0_v5)
      = wholeOut m c :=
    (Pipeline.withArrays_arr spec0 launch0.win.arr_inj c _ _ 5).trans (final m c)
  funext i
  show shapeCast S4x2048x1024 (Pipeline.withArrays (cfgs 0).spec c (V0 m c) (fun w => (dats m 0 c).arrAt w (cfgs 0).N)
    (Proc.devRef .tc main_call0_v5)) shapeCasts_S8192x1024_S4x2048x1024 i = _
  rw [hw]

/-- Entry `(b, s, e)` of the reshaped output is entry `(2048·b + s, e)` of the output array: both sit at row-major
    position `(2048·b + s)·1024 + e`. -/
theorem reshaped_apply (c : Dev nD) (b : Fin 4) (s : Fin 2048) (e : Fin 1024) (r : Fin 8192) (hr : r.val = 2048 * b.val + s.val) :
    shapeCast S4x2048x1024 (wholeOut m c) shapeCasts_S8192x1024_S4x2048x1024 (ix3 b s e) = wholeOut m c (ix2 r e) := by
  refine shapeCast_apply (wholeOut m c) shapeCasts_S8192x1024_S4x2048x1024 (ix3 b s e) (ix2 r e) ?_
  show (S8192x1024.rowMajor (ix2 r e)).val = (S4x2048x1024.rowMajor (ix3 b s e)).val
  rw [Shape.rowMajor_val_three, Shape.rowMajor_val_two]
  show r.val * 1024 + e.val = (b.val * 2048 + s.val) * 1024 + e.val
  rw [hr, Nat.mul_comm 2048 b.val]

/-- The output array at row `2048·b + s`, the host's lines before the region read: the row function of row `(b, s)` of
    `x`, its phases formed from the folded weights. -/
theorem wholeOut_apply (c : Dev nD) (b : Fin 4) (s : Fin 2048) (e : Fin 1024) (r : Fin 8192) (hr : r.val = 2048 * b.val + s.val) :
    wholeOut m c (ix2 r e)
      = rowOut (phaseFolded (fun k => argX m c (ix3 b s k)) (fun f k => argW1 m c (ix2 f k)) (fun j f => argWq m c (ix2 j f)))
          (fun j => argθ m c (ix1 j)) (fun f j => argW2 m c (ix2 f j)) (fun e' f => argWo m c (ix2 e' f)) e := by
  unfold wholeOut phaseFolded
  show rowOut (fun j => ∑ k : Fin 1024, rowsIn m c (ix2 r k) * foldedIn m c (ix2 j k)) (fun j => shiftIn m c (ix2 0 j))
    (fun f j => mix2In m c (ix2 f j)) (fun e' f => mixoIn m c (ix2 e' f)) e = _
  have h0 : ∀ k : Fin 1024, rowsIn m c (ix2 r k) = argX m c (ix3 b s k) := fun k => rows_apply m c b s k r hr
  have h1 : ∀ (j : Fin 16) (k : Fin 1024), foldedIn m c (ix2 j k) = ∑ f : Fin 4096, argWq m c (ix2 j f) * argW1 m c (ix2 f k) :=
    fun j k => folded_apply m c j k
  have h2 : ∀ j : Fin 16, shiftIn m c (ix2 0 j) = argθ m c (ix1 j) := fun j => shift_apply m c 0 j
  have h3 : ∀ (f : Fin 4096) (j : Fin 16), mix2In m c (ix2 f j) = argW2 m c (ix2 f j) := fun f j => congrFun (V_mix2 m c) _
  have h4 : ∀ (e' : Fin 1024) (f : Fin 4096), mixoIn m c (ix2 e' f) = argWo m c (ix2 e' f) := fun e' f => congrFun (V_mixo m c) _
  simp only [h0, h1, h2, h3, h4]

/-- THE KERNEL PROGRAM'S RESULT ARRAY, for finite `x`, `w₁`, `w_q`, is `FeedForward.result` of the six arguments. -/
theorem result_eq (c : Dev nD) (hx : ∀ i, ∃ r : ℝ, argX m c i = (r : EReal)) (hw1 : ∀ i, ∃ r : ℝ, argW1 m c i = (r : EReal))
    (hwq : ∀ i, ∃ r : ℝ, argWq m c i = (r : EReal)) :
    shapeCast S4x2048x1024 (wholeOut m c) shapeCasts_S8192x1024_S4x2048x1024
      = result (argX m c) (argW1 m c) (argWq m c) (argθ m c) (argW2 m c) (argWo m c) := by
  funext i
  obtain ⟨b, s, e, rfl⟩ : ∃ (b : Fin 4) (s : Fin 2048) (e : Fin 1024), i = ix3 b s e := ⟨i 0, i 1, i 2, eq_ix3 i⟩
  have hb := b.isLt
  have hs := s.isLt
  rw [reshaped_apply m c b s e ⟨2048 * b.val + s.val, by omega⟩ rfl, wholeOut_apply m c b s e ⟨2048 * b.val + s.val, by omega⟩ rfl]
  show _ = rowOut (phaseChained (fun k => argX m c (ix3 b s k)) (fun f k => argW1 m c (ix2 f k)) (fun j f => argWq m c (ix2 j f)))
    (fun j => argθ m c (ix1 j)) (fun f j => argW2 m c (ix2 f j)) (fun e' f => argWo m c (ix2 e' f)) e
  rw [show phaseFolded (fun k => argX m c (ix3 b s k)) (fun f k => argW1 m c (ix2 f k)) (fun j f => argWq m c (ix2 j f))
      = phaseChained (fun k => argX m c (ix3 b s k)) (fun f k => argW1 m c (ix2 f k)) (fun j f => argWq m c (ix2 j f)) from
    funext fun j => phaseFolded_eq_chained _ _ _ (fun k => hx _) (fun f k => hw1 _) (fun j f => hwq _) j]

end Cert.KernelIdeal.KernelValue

end
-- ==== Proof.RefSide.lean ====
/-
  The reference, entry by entry.  Its result at `(b, s, e)` depends on the input only through row `(b, s)` of
  `x`: the row's phases are formed through the 4096 hidden pre-activations (`FeedForward.phaseChained`), and the
  rest is the row function `FeedForward.rowOut`.  Each stage of the reference is read at an index, outermost
  first; a contraction's operand indices are the output's leading coordinates with the summation index in the
  contracted place, and the phase shift `θ` is broadcast along the two leading axes.
-/
import proofs.«168954_j65481071396892_2_alg».proof.Proof.Gen.ReferenceIdeal.Read
import proofs.«168954_j65481071396892_2_alg».proof.Proof.Spec

noncomputable section

open scoped BigOperators

namespace Cert.ReferenceIdeal.RefValue

open Cert.ReferenceIdeal Cert.ReferenceIdeal.Read Idealize.ShloMosaic Idealize.ShloMosaic.ValueIdx FeedForward

/-! ## The operand indices of the four contractions and of the two broadcasts, by coordinates -/

theorem lidx0 (b : Fin 4) (s : Fin 2048) (f : Fin 4096) (k : Fin 1024) : lidx_main_v0 (ix3 b s f) k = ix3 b s k :=
  funext fun a => Fin.ext (by match a with | ⟨0, _⟩ => rfl | ⟨1, _⟩ => rfl | ⟨2, _⟩ => rfl)
theorem ridx0 (b : Fin 4) (s : Fin 2048) (f : Fin 4096) (k : Fin 1024) : ridx_main_v0 (ix3 b s f) k = ix2 f k :=
  funext fun a => Fin.ext (by match a with | ⟨0, _⟩ => rfl | ⟨1, _⟩ => rfl)
theorem lidx1 (b : Fin 4) (s : Fin 2048) (j : Fin 16) (k : Fin 4096) : lidx_main_v1 (ix3 b s j) k = ix3 b s k :=
  funext fun a => Fin.ext (by match a with | ⟨0, _⟩ => rfl | ⟨1, _⟩ => rfl | ⟨2, _⟩ => rfl)
theorem ridx1 (b : Fin 4) (s : Fin 2048) (j : Fin 16) (k : Fin 4096) : ridx_main_v1 (ix3 b s j) k = ix2 j k :=
  funext fun a => Fin.ext (by match a with | ⟨0, _⟩ => rfl | ⟨1, _⟩ => rfl)
theorem lidx6 (b : Fin 4) (s : Fin 2048) (f : Fin 4096) (k : Fin 16) : lidx_main_v6 (ix3 b s f) k = ix3 b s k :=
  funext fun a => Fin.ext (by match a with | ⟨0, _⟩ => rfl | ⟨1, _⟩ => rfl | ⟨2, _⟩ => rfl)
theorem ridx6 (b : Fin 4) (s : Fin 2048) (f : Fin 4096) (k : Fin 16) : ridx_main_v6 (ix3 b s f) k = ix2 f k :=
  funext fun a => Fin.ext (by match a with | ⟨0, _⟩ => rfl | ⟨1, _⟩ => rfl)
theorem lidx8 (b : Fin 4) (s : Fin 2048) (e : Fin 1024) (k : Fin 4096) : lidx_main_v8 (ix3 b s e) k = ix3 b s k :=
  funext fun a => Fin.ext (by match a with | ⟨0, _⟩ => rfl | ⟨1, _⟩ => rfl | ⟨2, _⟩ => rfl)
theorem ridx8 (b : Fin 4) (s : Fin 2048) (e : Fin 1024) (k : Fin 4096) : ridx_main_v8 (ix3 b s e) k = ix2 e k :=
  funext fun a => Fin.ext (by match a with | ⟨0, _⟩ => rfl | ⟨1, _⟩ => rfl)
theorem idxθ (b : Fin 4) (s : Fin 2048) (j : Fin 16) : idx_main_v2 (idx_main_v3 (ix3 b s j)) = ix1 j :=
  funext fun a => Fin.ext (by match a with | ⟨0, _⟩ => rfl)

variable (x0 : (⟨S4x2048x1024, .f32⟩ : BufTy).Contents (Elt Ideal)) (x1 : (⟨S4096x1024, .f32⟩ : BufTy).Contents (Elt Ideal))
  (x2 : (⟨S16x4096, .f32⟩ : BufTy).Contents (Elt Ideal)) (x3 : (⟨S16, .f32⟩ : BufTy).Contents (Elt Ideal))
  (x4 : (⟨S4096x16, .f32⟩ : BufTy).Contents (Elt Ideal)) (x5 : (⟨S1024x4096, .f32⟩ : BufTy).Contents (Elt Ideal))

/-- The reference's phases of row `(b, s)`: through the hidden pre-activations. -/
theorem phase_apply (b : Fin 4) (s : Fin 2048) (j : Fin 16) :
    val_main_v1 (F := Ideal) x0 x1 x2 (ix3 b s j)
      = phaseChained (fun e => x0 (ix3 b s e)) (fun f e => x1 (ix2 f e)) (fun j f => x2 (ix2 j f)) j := by
  rw [val_main_v1_apply]
  unfold phaseChained
  refine Finset.sum_congr rfl fun f _ => ?_
  rw [lidx1, ridx1, val_main_v0_apply]
  refine congrArg (· * x2 (ix2 j f)) (Finset.sum_congr rfl fun e _ => ?_)
  rw [lidx0, ridx0]

/-- The cosine of the shifted phase. -/
theorem cos_apply (b : Fin 4) (s : Fin 2048) (j : Fin 16) :
    val_main_v5 (F := Ideal) x0 x1 x2 x3 (ix3 b s j)
      = Ideal.cos (phaseChained (fun e => x0 (ix3 b s e)) (fun f e => x1 (ix2 f e)) (fun j f => x2 (ix2 j f)) j + x3 (ix1 j)) := by
  rw [val_main_v5_apply, val_main_v4_apply, val_main_v3_apply, val_main_v2_apply, phase_apply, idxθ]
  rfl

/-- A hidden unit of row `(b, s)`: the mix of the 16 cosines, clamped below at zero. -/
theorem hidden_apply (b : Fin 4) (s : Fin 2048) (f : Fin 4096) :
    val_main_v7 (F := Ideal) x0 x1 x2 x3 x4 (ix3 b s f)
      = max (∑ j : Fin 16, Ideal.cos (phaseChained (fun e => x0 (ix3 b s e)) (fun f e => x1 (ix2 f e)) (fun j f => x2 (ix2 j f)) j + x3 (ix1 j)) * x4 (ix2 f j)) 0 := by
  rw [val_main_v7_apply, val_main_v6_apply, val_main_call0_v0_apply, val_main_call0_cst_apply]
  show max _ (Ideal.ofBits .f32 0x00000000#32) = _
  rw [Ideal.ofBits_zero_f32]
  refine congrArg (max · 0) (Finset.sum_congr rfl fun j _ => ?_)
  rw [lidx6, ridx6, cos_apply]

/-- THE REFERENCE AT AN ENTRY: the row function of row `(b, s)`'s chained phases. -/
theorem ref_apply (b : Fin 4) (s : Fin 2048) (e : Fin 1024) :
    val_main_v8 (F := Ideal) x0 x1 x2 x3 x4 x5 (ix3 b s e)
      = rowOut (phaseChained (fun e => x0 (ix3 b s e)) (fun f e => x1 (ix2 f e)) (fun j f => x2 (ix2 j f)))
          (fun j => x3 (ix1 j)) (fun f j => x4 (ix2 f j)) (fun e f => x5 (ix2 e f)) e := by
  rw [val_main_v8_apply]
  unfold rowOut
  refine Finset.sum_congr rfl fun f _ => ?_
  rw [lidx8, ridx8, hidden_apply]

/-- THE REFERENCE'S RESULT ARRAY is `FeedForward.result` of its arguments. -/
theorem ref_eq_result : val_main_v8 (F := Ideal) x0 x1 x2 x3 x4 x5 = result x0 x1 x2 x3 x4 x5 := by
  funext i
  obtain ⟨b, s, e, rfl⟩ : ∃ (b : Fin 4) (s : Fin 2048) (e : Fin 1024), i = ix3 b s e := ⟨i 0, i 1, i 2, eq_ix3 i⟩
  exact ref_apply x0 x1 x2 x3 x4 x5 b s e

end Cert.ReferenceIdeal.RefValue

end
-- ==== Proof.Finite.lean ====
/-
  From the precondition to real numbers.  The precondition says of each input array that every entry's absolute
  value is below `+∞`; it is the conjunction of six such statements, each a reduction by `and` over the whole
  array.  On the extended reals `|v| < +∞` rules out both infinities, so the entry is a real number.  Only the
  three arrays that enter the phases — `x`, `w₁`, `w_q` — are needed: the exchange of the two sums that forms
  the phases is the one step that fails at an infinity.
-/
import proofs.«168954_j65481071396892_2_alg».proof.Pre_finite_inputs
import proofs.«168954_j65481071396892_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Cert.Pre_finite_inputs Idealize.ShloMosaic Idealize.ShloMosaic.ValueIdx

/-- The scalar shape has one index. -/
instance : Subsingleton S_.Idx := ⟨fun a b => funext fun d => d.elim0⟩

/-- The word `0x7F800000` denotes `+∞`. -/
theorem inf_word : Ideal.ofBits .f32 0x7F800000#32 = (⊤ : EReal) := by
  simp [Ideal.ofBits, Ideal.ieee]

/-- An extended real whose absolute value is below `+∞` is a real number. -/
theorem real_of_abs_lt_inf (v : EReal) (h : Ideal.cmp .olt (max v (-v)) (Ideal.ofBits .f32 0x7F800000#32) = 1#1) :
    ∃ r : ℝ, v = (r : EReal) := by
  rw [inf_word] at h
  induction v using EReal.rec with
  | bot => simp [Ideal.cmp] at h
  | coe r => exact ⟨r, rfl⟩
  | top => simp [Ideal.cmp] at h

/-- Under the precondition every entry of `x`, of `w₁` and of `w_q` is a real number. -/
theorem real_entries (a0 : FVec Ideal S4x2048x1024 .f32) (a1 : FVec Ideal S4096x1024 .f32) (a2 : FVec Ideal S16x4096 .f32)
    (a3 : FVec Ideal S16 .f32) (a4 : FVec Ideal S4096x16 .f32) (a5 : FVec Ideal S1024x4096 .f32)
    (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨h4, hq⟩ := IntOp.andi_eq_one.1 h3
  obtain ⟨hx, hw⟩ := IntOp.andi_eq_one.1 h4
  exact ⟨fun i => real_of_abs_lt_inf _ (Host.reduce_andi_all _ _ _ _ _ hx i),
    fun i => real_of_abs_lt_inf _ (Host.reduce_andi_all _ _ _ _ _ hw i),
    fun i => real_of_abs_lt_inf _ (Host.reduce_andi_all _ _ _ _ _ hq i)⟩

end Cert.Pre_finite_inputs.Finite

end
-- ==== Proof.lean ====
/-
  The feed-forward block with a cosine nonlinearity on 16 phases, kernel against reference, on the extended reals.

  Both programs compute, for every row `(b, s)` of `x` and every output column `e`,
      out[b, s, e] = ∑ f, max (∑ j, cos (q[j] + θ[j]) · w₂[f, j]) 0 · wₒ[e, f],
  and differ in the 16 phases `q` of the row.  The reference forms the 4096 hidden pre-activations `x · w₁ᵀ` and
  contracts them with `w_q`; the kernel program folds `w_q · w₁` on the host into a `16 × 1024` matrix and contracts the
  row with that, 512 rows per grid point.  The two double sums are equal when the entries of `x`, `w₁`, `w_q` are finite
  (distributivity and an exchange of the sums: `FeedForward.phaseFolded_eq_chained`), and the precondition says they
  are (`Cert.Pre_finite_inputs.Finite.real_entries`).  Everything after the phases is the same expression on both sides.

  The kernel program's side: each grid point stores the row function of its 512 rows (`Body`), the 16 tiles cover the
  `[8192, 1024]` output array (`Blocks`), the host's lines before the region flatten `x`, fold the phase weights and
  change formats (`HostSide`), and its last line reshapes the output back (`KernelValue`).  The reference's side is its
  run read one operation at a time (`RefSide`).  The three frame claims are the generated runs; the idealization
  rewrote no operation, so there is nothing to preserve.
-/
import proofs.«168954_j65481071396892_2_alg».proof.Defs
import proofs.«168954_j65481071396892_2_alg».proof.Proof.Gen.Kernel
import proofs.«168954_j65481071396892_2_alg».proof.Proof.Gen.Kernel.Skeleton
import proofs.«168954_j65481071396892_2_alg».proof.Proof.Gen.Kernel.Launch
import proofs.«168954_j65481071396892_2_alg».proof.Proof.Gen.Kernel.Points
import proofs.«168954_j65481071396892_2_alg».proof.Proof.Gen.Kernel.Frame
import proofs.«168954_j65481071396892_2_alg».proof.Proof.Gen.KernelIdeal
import proofs.«168954_j65481071396892_2_alg».proof.Proof.Gen.KernelIdeal.Skeleton
import proofs.«168954_j65481071396892_2_alg».proof.Proof.Gen.KernelIdeal.Launch
import proofs.«168954_j65481071396892_2_alg».proof.Proof.Gen.KernelIdeal.Points
import proofs.«168954_j65481071396892_2_alg».proof.Proof.Gen.KernelIdeal.Frame
import proofs.«168954_j65481071396892_2_alg».proof.Proof.Gen.ReferenceIdeal
import proofs.«168954_j65481071396892_2_alg».proof.Proof.Gen.ReferenceIdeal.Run
import proofs.«168954_j65481071396892_2_alg».proof.Proof.Gen.ReferenceIdeal.Read
import proofs.«168954_j65481071396892_2_alg».proof.Proof.Gen.Pre_finite_inputs
import proofs.«168954_j65481071396892_2_alg».proof.Proof.KernelValue
import proofs.«168954_j65481071396892_2_alg».proof.Proof.RefSide
import proofs.«168954_j65481071396892_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

open Cert.KernelIdeal Cert.KernelIdeal.Gen Cert.KernelIdeal.HostSide Cert.KernelIdeal.KernelValue in
/-- Both programs end with `FeedForward.result` of the six arguments in their result buffers: the kernel program
    because its folded phases are the chained ones for finite inputs, the reference by its run read back. -/
theorem algebraic : Cert.algebraic_KernelIdeal_ReferenceIdeal := by
  intro m ρ m' ρ' hpre hagree
  refine ⟨fun c => FeedForward.result (argX m c) (argW1 m c) (argWq m c) (argθ m c) (argW2 m c) (argWo m c), ?_, ?_⟩
  · refine (θ_run Cert.KernelIdeal.defs _ _).mono (fun r h c => ?_) (Cert.KernelIdeal.Gen.run_main m ρ)
    obtain ⟨hx, hw1, hwq⟩ := Cert.Pre_finite_inputs.Finite.real_entries _ _ _ _ _ _ (hpre c)
    exact ⟨(((h c).2 main_v0 (Pipeline.mem_restRefs_of main_v0 (by decide) (by decide))).trans (tail_eq m c)).trans
        (result_eq m c hx hw1 hwq),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩
  · refine (θ_run Cert.ReferenceIdeal.defs _ _).mono (fun _ h c => ⟨?_, (h c).2⟩)
      (Cert.ReferenceIdeal.Value.run (F := Ideal) m' ρ')
    refine ((h c).1.trans (Cert.ReferenceIdeal.Read.val_main_v8_eq _ _ _ _ _ _)).trans
      ((Cert.ReferenceIdeal.RefValue.ref_eq_result _ _ _ _ _ _).trans ?_)
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
